-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 20
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  The node update of a graph-convolution layer, as one function of three arrays of extended reals.

  Given the aggregated messages `agg` (one row of 128 features per node, 100000 nodes), a 128 x 128 matrix `wt`
  and a bias row `b`, entry (r, j) of the result is

      max ( (sum over k < 128 of agg[r, k] * wt[k, j]) + b[j] , 0 ).

  Row r of the result depends on row r of `agg` only, on column j of `wt` and on b[j]: the rows are independent of
  one another, which is why the array may be computed 5000 rows at a time. Nothing here is specific to either
  program: both are shown to compute this function, so no algebraic law beyond reading each side's operations at an
  index is needed, and in particular nothing is asked of the inputs' finiteness.
-/
import Idealize.ShloMosaic.PureOps.Ideal
import Idealize.ShloMosaic.PureOps.Ideal.Laws
import Idealize.ShloMosaic.Lib.ValueIdx

noncomputable section

open scoped BigOperators

namespace Cert.NodeUpdate

open Idealize.ShloMosaic Idealize.ShloMosaic.ValueIdx

/-- The node-feature arrays: 100000 rows of 128 features. -/
abbrev Nodes : Shape := ⟨2, ![100000, 128]⟩
/-- The square weight matrix. -/
abbrev Weights : Shape := ⟨2, ![128, 128]⟩
/-- The bias row. -/
abbrev Bias : Shape := ⟨1, ![128]⟩

/-- Entry (r, j) of the layer: row r of `agg` against column j of `wt`, plus b[j], clamped below at zero. The zero is
    kept as the word both programs write it with, so it is never evaluated. -/
def entry (agg : Nodes.Idx → EReal) (wt : Weights.Idx → EReal) (b : Bias.Idx → EReal) (r : Fin 100000) (j : Fin 128) : EReal :=
  max ((∑ k : Fin 128, agg (ix2 r k) * wt (ix2 k j)) + b (ix1 j)) (Ideal.ofBits .f32 0x00000000#32)

/-- The whole layer, index by index. -/
def layer (agg : Nodes.Idx → EReal) (wt : Weights.Idx → EReal) (b : Bias.Idx → EReal) : Nodes.Idx → EReal :=
  fun i => entry agg wt b (i 0) (i 1)

/-- At an index given by its coordinates the layer is that entry. -/
theorem layer_ix2 (agg : Nodes.Idx → EReal) (wt : Weights.Idx → EReal) (b : Bias.Idx → EReal) (r : Fin 100000) (j : Fin 128) :
    layer agg wt b (ix2 r j) = entry agg wt b r j := rfl

end Cert.NodeUpdate

end
-- ==== Proof.RefLayer.lean ====
/-
  The reference's result is the node update of its own aggregated messages and transposed weights.

  After the aggregation (a gather of source rows scattered and added into destination rows) and the transpose of the
  weight matrix, the reference computes a matrix product contracting the feature axis, adds the bias broadcast over
  the rows, and takes the maximum with a zero array. Read at entry (r, j): the product is the sum over k of
  agg[r, k] * wt[k, j]; the twice-broadcast bias is b[j]; the zero array is the zero word. That is `NodeUpdate.entry`.
  The aggregation and the transpose are never opened: they enter as the two arrays the layer is applied to.
-/
import proofs.«149883_j78804059947399_1_alg».proof.Proof.Gen.ReferenceIdeal.Read
import proofs.«149883_j78804059947399_1_alg».proof.Proof.NodeUpdate

noncomputable section

open scoped BigOperators

namespace Cert.ReferenceIdeal.RefLayer

open Cert.ReferenceIdeal Cert.ReferenceIdeal.Read Cert.NodeUpdate Idealize.ShloMosaic Idealize.ShloMosaic.ValueIdx

/-- THE REFERENCE IS THE LAYER: its last stage, as a function of the five arguments, is `layer` of its aggregation
    stage, its transpose stage and the bias. -/
theorem result_is_layer (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v15 (F := Ideal) x0 x1 x2 x3 x4
      = layer (val_main_v9 (F := Ideal) x0 x1 x2) (val_main_v10 (F := Ideal) x3) x4 := by
  funext i
  obtain ⟨r, j, rfl⟩ : ∃ (r : Fin 100000) (j : Fin 128), i = ix2 r j := ⟨i 0, i 1, eq_ix2 i⟩
  rw [layer_ix2]
  -- the product's operand indices at (r, j) and contraction coordinate k are (r, k) and (k, j)
  have el : ∀ k : Fin 128, lidx_main_v11 (ix2 r j) k = ix2 r k := fun k =>
    funext fun a => Fin.ext (by match a with | ⟨0, _⟩ => rfl | ⟨1, _⟩ => rfl)
  have er : ∀ k : Fin 128, ridx_main_v11 (ix2 r j) k = ix2 k j := fun k =>
    funext fun a => Fin.ext (by match a with | ⟨0, _⟩ => rfl | ⟨1, _⟩ => rfl)
  -- the bias, made a row and then repeated over the rows, is read at its column
  have eb : idx_main_v12 (idx_main_v13 (ix2 r j)) = ix1 j :=
    funext fun a => Fin.ext (by match a with | ⟨0, _⟩ => rfl)
  rw [val_main_v15_apply, val_main_v14_apply, val_main_v11_apply, val_main_v13_apply, val_main_v12_apply,
    val_main_call0_v0_apply, val_main_call0_cst_apply]
  simp only [el, er, eb]
  rfl

end Cert.ReferenceIdeal.RefLayer

end
-- ==== Proof.BlockValue.lean ====
/-
  What the kernel's body computes for one block of 5000 rows, read at one entry.

  The body loads a 5000 x 128 block `x0` of the aggregated messages, the whole 128 x 128 matrix `x1` and the bias row
  `x2`, and stores

      max ( matmul (x0 narrowed) (x1 narrowed) into a zero accumulator  +  (x2 as one row, repeated 5000 times) , 0 ).

  Over the extended reals narrowing a float's format is the identity, a matrix product into a zero accumulator is the
  plain sum over the contracted axis, and the repeated row read at (p, q) is x2[q]. So entry (p, q) of the stored block is

      max ( (sum over k < 128 of x0[p, k] * x1[k, q]) + x2[q] , 0 ):

  it depends on row p of the block only.
-/
import proofs.«149883_j78804059947399_1_alg».proof.Proof.Gen.KernelIdeal.Skeleton
import proofs.«149883_j78804059947399_1_alg».proof.Proof.NodeUpdate
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The left operand's row coordinate is the output's row. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column coordinate is the contraction coordinate. -/
theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row coordinate is the contraction coordinate. -/
theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column coordinate is the output's column. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product's left operand index at output (p, q) and contraction coordinate k is (p, k). -/
theorem lhs_at (p : Fin 5000) (q k : Fin 128) :
    dot_S5000x128_S128x128_S5000x128_1_0_0_1_n_n.lhsIdx (ix2 p q)
        ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  refine funext fun a => Fin.ext ?_
  match a with
  | ⟨0, _⟩ => exact lhs_row _ _
  | ⟨1, _⟩ => exact (lhs_col _ _).trans hk

/-- The product's right operand index at output (p, q) and contraction coordinate k is (k, q). -/
theorem rhs_at (p : Fin 5000) (q k : Fin 128) :
    dot_S5000x128_S128x128_S5000x128_1_0_0_1_n_n.rhsIdx (ix2 p q)
        ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  refine funext fun a => Fin.ext ?_
  match a with
  | ⟨0, _⟩ => exact (rhs_row _ _).trans hk
  | ⟨1, _⟩ => exact rhs_col _ _

/-- A block times the matrix, into a zero accumulator, at (p, q): row p of the block against column q of the matrix. -/
theorem product_at (a : FVec Ideal S5000x128 .bf16) (w : FVec Ideal S128x128 .bf16) (p : Fin 5000) (q : Fin 128) :
    matmul (F := Ideal) dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  rw [lhs_at, rhs_at]

/-- The bias as one row, repeated over the block's 5000 rows, at (p, q) is the bias at q. -/
theorem bias_at (x2 : FVec Ideal S128 .f32) (p : Fin 5000) (q : Fin 128) :
    broadcastTo S5000x128 (shapeCast S1x128 x2 shapeCasts_S128_S1x128) broadcasts_S1x128_S5000x128 (ix2 p q) = x2 (ix1 q) := by
  rw [broadcastTo_1b_ab_apply, shapeCast_a_1a_apply]

/-- THE BLOCK'S ENTRY: what the body stores at (p, q), from the three loaded values. -/
theorem stored_at (x0 : Vec Ideal S5000x128 .f32) (x1 : Vec Ideal S128x128 .f32) (x2 : Vec Ideal S128 .f32) (p : Fin 5000) (q : Fin 128) :
    k0_pay1 (F := Ideal) x0 x1 x2 (ix2 p q)
      = max ((∑ k : Fin 128, x0 (ix2 p k) * x1 (ix2 k q)) + x2 (ix1 q)) (Ideal.ofBits .f32 0x00000000#32) := by
  unfold k0_pay1
  rw [maximumf_apply, addf_apply, product_at, bias_at]
  simp only [shapeCast_self]
  rfl

end Cert.KernelIdeal.BlockValue

end
-- ==== Proof.RegionEntry.lean ====
/-
  What the kernel's region finds when it is entered.

  Before the region the kernel's program runs fourteen host operations, and they are, operation for operation and
  word for word, the first fourteen of the reference: wrap negative source indices by the number of nodes, gather the
  source rows, scatter and add them into a zero array at the destination rows, and transpose the weight matrix. So
  the array the region reads its row blocks from is the reference's aggregation stage of the same three arguments,
  and the matrix it reads is the reference's transposed weights. Neither chain is opened: each side's is read off
  its program as one term, and the two terms are the same term.
-/
import proofs.«149883_j78804059947399_1_alg».proof.Proof.Gen.KernelIdeal.Frame
import proofs.«149883_j78804059947399_1_alg».proof.Proof.Gen.ReferenceIdeal.Read
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated messages the region reads are the reference's aggregation of the node features, the source
    indices and the destination indices. -/
theorem aggregated (c : Dev nD) :
    (V m c main_v9 : S100000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The matrix the region reads is the reference's transpose of the weights. -/
theorem transposed (c : Dev nD) :
    (V m c main_v10 : S128x128.Idx → EReal)
      = Cert.ReferenceIdeal.Read.val_main_v10 (F := Ideal) (m ((c : Thread nD τ).loc main_arg3)) := by
  dsimp only [Gen.V, Gen.hostOps0]
  after_results
  rfl

end Cert.KernelIdeal.RegionEntry

end
-- ==== Proof.BlockRows.lean ====
/-
  One block of 5000 rows is 5000 rows of the layer.

  If the block the body is given holds rows base .. base + 4999 of the aggregated messages, and the matrix and the
  bias it is given are the whole matrix and bias, then entry (p, q) of what it stores is entry (base + p, q) of
  `NodeUpdate.layer`: the stored entry depends on row p of the block only (`BlockValue.stored_at`), and that row is
  row base + p of the array.
-/
import proofs.«149883_j78804059947399_1_alg».proof.Proof.NodeUpdate
import proofs.«149883_j78804059947399_1_alg».proof.Proof.BlockValue

noncomputable section

open scoped BigOperators

namespace Cert.KernelIdeal.BlockRows

open Cert.KernelIdeal Cert.KernelIdeal.Gen Cert.NodeUpdate Idealize.ShloMosaic Idealize.ShloMosaic.ValueIdx

/-- A block of 5000 rows starting at row `base`: if the loaded block is those rows of `agg`, and the loaded matrix and
    bias are `wt` and `b`, then what the body stores at y is the layer at the array index i that y sits at
    (row `base` + the row of y, the same column). -/
theorem block_is_rows (agg : Nodes.Idx → EReal) (wt : Weights.Idx → EReal) (b : Bias.Idx → EReal)
    (x0 : Vec Ideal S5000x128 .f32) (x1 : Vec Ideal S128x128 .f32) (x2 : Vec Ideal S128 .f32) (base : Nat)
    (h0 : ∀ (p : Fin 5000) (k : Fin 128) (r : Fin 100000), r.val = base + p.val → x0 (ix2 p k) = agg (ix2 r k))
    (h1 : ∀ k q : Fin 128, x1 (ix2 k q) = wt (ix2 k q))
    (h2 : ∀ q : Fin 128, x2 (ix1 q) = b (ix1 q))
    (y : S5000x128.Idx) (i : Nodes.Idx) (hi0 : (i 0).val = base + (y 0).val) (hi1 : (i 1).val = (y 1).val) :
    k0_pay1 (F := Ideal) x0 x1 x2 y = layer agg wt b i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  have hr : r.val = base + p.val := hi0
  have hj : j = q := Fin.ext hi1
  subst hj
  rw [BlockValue.stored_at, layer_ix2]
  unfold entry
  simp only [fun k => h0 p k r hr, h1, h2]

end Cert.KernelIdeal.BlockRows

end
-- ==== Proof.BlockReads.lean ====
/-
  The blocks the body is given at a grid point, as entries of whatever arrays the windows are over.

  The grid has twenty points. The window over the aggregated messages (and the one over the result) is at block
  (t, 0) at point t: rows 5000 t .. 5000 t + 4999, all 128 columns. The windows over the matrix and the bias are at
  their one block at every point. An entry of a block sits in its array at block index x block size + its own
  coordinate, per axis. Nothing here depends on what the arrays hold: each reading is stated for an arbitrary array.
-/
import proofs.«149883_j78804059947399_1_alg».proof.Proof.Gen.KernelIdeal.Frame
import Idealize.ShloMosaic.Lib.Pipeline.Value
import Idealize.ShloMosaic.Lib.ValueIdx

noncomputable section

namespace Cert.KernelIdeal.BlockReads

open Cert.KernelIdeal Cert.KernelIdeal.Gen
open Idealize.ShloMosaic Idealize.ShloMosaic.TcCoe Idealize.SL.Sem Idealize.ShloMosaic.ValueIdx

/-- Decided over the twenty points: the row-block windows (the aggregated messages, the result) sit at block
    (t, 0); the matrix and the bias are always at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of point t's block of an array of node rows is row 5000 t + p of the array. -/
theorem rows_read (A : S100000x128.Idx → EReal) (t : Fin cfg0.N) (p : Fin 5000) (k : Fin 128) (r : Fin 100000)
    (hr : r.val = t.val * 5000 + p.val) :
    (((cfg0.win 0).blk t).view.read (Elt Ideal) A : Vec Ideal S5000x128 .f32) (ix2 p k) = A (ix2 r k) := by
  obtain ⟨e0, e1, -⟩ := block_indices t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's block of a 128 x 128 matrix is the whole matrix. -/
theorem matrix_read (A : S128x128.Idx → EReal) (t : Fin cfg0.N) (k q : Fin 128) :
    (((cfg0.win 1).blk t).view.read (Elt Ideal) A : Vec Ideal S128x128 .f32) (ix2 k q) = A (ix2 k q) := by
  obtain ⟨-, -, e0, e1, -⟩ := block_indices t
  show A (((cfg0.win 1).blk t).view.emb (ix2 k q)) = A (ix2 k q)
  refine congrArg A (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Every point's block of a row of 128 is the whole row. -/
theorem bias_read (A : S128.Idx → EReal) (t : Fin cfg0.N) (q : Fin 128) :
    (((cfg0.win 2).blk t).view.read (Elt Ideal) A : Vec Ideal S128 .f32) (ix1 q) = A (ix1 q) := by
  obtain ⟨-, -, -, -, e0, -⟩ := block_indices t
  show A (((cfg0.win 2).blk t).view.emb (ix1 q)) = A (ix1 q)
  refine congrArg A (funext fun a => Fin.ext ?_)
  match a with
  | ⟨0, _⟩ => show win0_2.index t (0 : Fin 1) * 128 + 1 * q.val = q.val; rw [e0]; omega

end Cert.KernelIdeal.BlockReads

end
-- ==== Proof.RowBlocks.lean ====
/-
  From twenty blocks of 5000 rows to the whole array.

  The kernel's grid has twenty points. At point t the body is given rows 5000 t .. 5000 t + 4999 of the aggregated
  messages, the whole weight matrix and the whole bias row, and what it stores is written back as rows
  5000 t .. 5000 t + 4999 of the result. Since entry (p, q) of the stored block depends on row p of the block it was
  given only, the block written at point t is rows 5000 t .. of `NodeUpdate.layer` of the whole arrays
  (`point_writes`, for arbitrary arrays). Row r of the result lies in the block of point r / 5000, so the twenty
  blocks cover the array, and the array ends holding `layer` of the arrays the region found — which are the
  reference's aggregation and transpose of the same arguments (`RegionEntry`).
-/
import proofs.«149883_j78804059947399_1_alg».proof.Proof.Gen.KernelIdeal.Value
import proofs.«149883_j78804059947399_1_alg».proof.Proof.NodeUpdate
import proofs.«149883_j78804059947399_1_alg».proof.Proof.BlockRows
import proofs.«149883_j78804059947399_1_alg».proof.Proof.BlockReads
import proofs.«149883_j78804059947399_1_alg».proof.Proof.RegionEntry
import Idealize.ShloMosaic.Lib.Pipeline.Value
import Idealize.ShloMosaic.Lib.ValueIdx

noncomputable section

open scoped BigOperators

namespace Cert.KernelIdeal.RowBlocks

open Cert.KernelIdeal Cert.KernelIdeal.Gen Cert.KernelIdeal.Value Cert.NodeUpdate
open Cert.KernelIdeal.BlockRows Cert.KernelIdeal.BlockReads
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a; rfl

/-! ## What a point writes back, for arbitrary arrays -/

/-- WHAT POINT t WRITES BACK: given the blocks at t of arrays A0 (node rows), A1 (the matrix) and A2 (the bias), the
    body's stored block, read through the result window, is block t of the layer of A0, A1 and A2. -/
theorem point_writes (A0 : S100000x128.Idx → EReal) (A1 : S128x128.Idx → EReal) (A2 : S128.Idx → EReal) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (layer A0 A1 A2) := by
  unfold out0_3
  rw [View.canon_unit_zero zero2]
  simp only [View.ld_unit_zero (S := S5000x128) zero2, View.ld_unit_zero (S := S128x128) zero2,
    View.ld_unit_zero (S := S128) zero1]
  obtain ⟨-, -, -, -, -, e0, e1⟩ := block_indices t
  funext y
  show k0_pay1 (F := Ideal) (((cfg0.win 0).blk t).view.read (Elt Ideal) A0) (((cfg0.win 1).blk t).view.read (Elt Ideal) A1)
      (((cfg0.win 2).blk t).view.read (Elt Ideal) A2) y
    = layer A0 A1 A2 (((cfg0.win 3).blk t).view.emb y)
  refine block_is_rows A0 A1 A2 _ _ _ (t.val * 5000) (fun p k r hr => rows_read A0 t p k r hr)
    (fun k q => matrix_read A1 t k q) (fun q => bias_read A2 t q) y _ ?_ ?_
  · show win0_3.index t (0 : Fin 2) * 5000 + 1 * (y 0).val = t.val * 5000 + (y 0).val
    rw [e0]; omega
  · show win0_3.index t (1 : Fin 2) * 128 + 1 * (y 1).val = (y 1).val
    rw [e1]; omega

/-! ## The cover -/

/-- An index of the result array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

/-- THE COVER: row r of the result is in the block of point r / 5000. -/
theorem cover (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, e0, e1⟩ := block_indices t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-! ## The array, and the run -/

variable (m : (ℓ : Loc nD τ sig) → Buf (Elt Ideal) ℓ) (ρ : Dev nD → PrngReg)

/-- What point t writes back is block t of the layer of the arrays the region found. -/
theorem flushed_eq (c : Dev nD) (t : Fin cfg0.N) :
    (dats m 0 c).flushed 3 t = ((cfg0.win 3).blk t).view.read (Elt Ideal)
      (layer (V m c (Pipeline.arrRef spec0 0)) (V m c (Pipeline.arrRef spec0 1)) (V m c (Pipeline.arrRef spec0 2))) := by
  rw [Value.flushed3]
  unfold iblk
  exact point_writes _ _ _ t

/-- The layer respects equal arrays. -/
theorem layer_congr {A0 A0' : Nodes.Idx → EReal} {A1 A1' : Weights.Idx → EReal} {A2 A2' : Bias.Idx → EReal}
    (h0 : A0 = A0') (h1 : A1 = A1') (h2 : A2 = A2') : layer A0 A1 A2 = layer A0' A1' A2' := by
  subst h0 h1 h2; rfl

/-- THE ARRAY after the run: the layer of the reference's aggregation and transpose of the same arguments, and the
    bias. -/
theorem final (c : Dev nD) : (dats m 0 c).arrAt 3 cfg0.N
    = layer (Cert.ReferenceIdeal.Read.val_main_v9 (F := Ideal) (m ((c : Thread nD τ).loc main_arg0))
          (m ((c : Thread nD τ).loc main_arg1)) (m ((c : Thread nD τ).loc main_arg2)))
        (Cert.ReferenceIdeal.Read.val_main_v10 (F := Ideal) (m ((c : Thread nD τ).loc main_arg3)))
        (m ((c : Thread nD τ).loc main_arg4)) :=
  ((dats m 0 c).arrAt_eq_of_cover 3 _ (fun t _ => flushed_eq m c t) cover).trans
    (layer_congr (RegionEntry.aggregated m c) (RegionEntry.transposed m c) (V_main_arg4 m c))

/-- The kernel's run with its result array named: the layer, the arguments unchanged. -/
theorem run : θ_run defs (onTc (τ := τ) (main (F := Ideal))) ⟨m, fun _ => 0, ρ⟩ fun r => ∀ c : Dev nD,
      r.2.mem ((c : Thread nD τ).loc main_v11)
        = layer (Cert.ReferenceIdeal.Read.val_main_v9 (F := Ideal) (m ((c : Thread nD τ).loc main_arg0))
              (m ((c : Thread nD τ).loc main_arg1)) (m ((c : Thread nD τ).loc main_arg2)))
            (Cert.ReferenceIdeal.Read.val_main_v10 (F := Ideal) (m ((c : Thread nD τ).loc main_arg3)))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RowBlocks

end
-- ==== Proof.lean ====
/-
  A graph-convolution layer: the kernel against its reference, over the extended reals.

  Both programs first aggregate messages on the host — gather the source node's features for each edge (a negative
  source index wrapped by the number of nodes), scatter and add them into a zero array at the destination nodes — and
  transpose the weight matrix. Those fourteen operations are the same in both, word for word.

  The reference then computes, for the whole 100000 x 128 array at once, the matrix product of the aggregated messages
  with the transposed weights, adds the bias to every row, and takes the maximum with zero. The kernel does the same
  20 times, 5000 rows at a time: it narrows both operands to a shorter float format (the identity on extended reals),
  multiplies them into a zero accumulator (the plain sum over the 128 contracted features), adds the bias row and takes
  the maximum with zero. A row of the result depends on the same row of the aggregated messages only, so the twenty
  row blocks are the rows of one function of the whole arrays, `NodeUpdate.layer`:

      result[r, j] = max ( (sum over k < 128 of agg[r, k] * wt[k, j]) + b[j] , 0 ).

  The reference is that function by reading its operations at an index (`RefLayer`); the kernel is that function
  block by block (`BlockValue`, `BlockRows`, `BlockReads`, `RowBlocks`) of the arrays its region finds, which are the reference's (`RegionEntry`).
  No law of arithmetic beyond these readings is used, so the finiteness of the inputs is never needed. The kernel's
  idealization rewrote nothing, so there is nothing to preserve; the three programs' runs terminating without a fault
  and leaving their arguments unchanged are the generated frames and the reference's generated run.
-/
import proofs.«149883_j78804059947399_1_alg».proof.Defs
import proofs.«149883_j78804059947399_1_alg».proof.Proof.Gen.Kernel
import proofs.«149883_j78804059947399_1_alg».proof.Proof.Gen.Kernel.Skeleton
import proofs.«149883_j78804059947399_1_alg».proof.Proof.Gen.Kernel.Launch
import proofs.«149883_j78804059947399_1_alg».proof.Proof.Gen.Kernel.Points
import proofs.«149883_j78804059947399_1_alg».proof.Proof.Gen.Kernel.Frame
import proofs.«149883_j78804059947399_1_alg».proof.Proof.Gen.KernelIdeal
import proofs.«149883_j78804059947399_1_alg».proof.Proof.Gen.KernelIdeal.Skeleton
import proofs.«149883_j78804059947399_1_alg».proof.Proof.Gen.KernelIdeal.Launch
import proofs.«149883_j78804059947399_1_alg».proof.Proof.Gen.KernelIdeal.Points
import proofs.«149883_j78804059947399_1_alg».proof.Proof.Gen.KernelIdeal.Frame
import proofs.«149883_j78804059947399_1_alg».proof.Proof.Gen.ReferenceIdeal
import proofs.«149883_j78804059947399_1_alg».proof.Proof.Gen.KernelIdeal.Value
import proofs.«149883_j78804059947399_1_alg».proof.Proof.Gen.ReferenceIdeal.Run
import proofs.«149883_j78804059947399_1_alg».proof.Proof.Gen.ReferenceIdeal.Read
import proofs.«149883_j78804059947399_1_alg».proof.Proof.Gen.Pre_finite_inputs
import proofs.«149883_j78804059947399_1_alg».proof.Proof.NodeUpdate
import proofs.«149883_j78804059947399_1_alg».proof.Proof.RefLayer
import proofs.«149883_j78804059947399_1_alg».proof.Proof.BlockValue
import proofs.«149883_j78804059947399_1_alg».proof.Proof.RegionEntry
import proofs.«149883_j78804059947399_1_alg».proof.Proof.BlockRows
import proofs.«149883_j78804059947399_1_alg».proof.Proof.BlockReads
import proofs.«149883_j78804059947399_1_alg».proof.Proof.RowBlocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories agreeing on the five arguments both programs end with the layer of the aggregated messages, the
    transposed weights and the bias: the kernel's array block by block, the reference's by reading its last stage. -/
theorem algebraic : Cert.algebraic_KernelIdeal_ReferenceIdeal := by
  intro m ρ m' ρ' _ hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefLayer.result_is_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
